-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S600000 32) (main_arg1 : IVec S600000 32) (main_arg2 : FVec F S600000 .f32) (main_arg3 : FVec F S100000x128 .f32) (main_arg4 : FVec F S128x128 .f32) (main_arg5 : FVec F S128 .f32) (main_arg6 : FVec F S128x128 .f32) (main_arg7 : FVec F S128 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S10000x128 : Shape := ⟨2, ![10000, 128]⟩
abbrev S1x128 : Shape := ⟨2, ![1, 128]⟩

abbrev nBuf : Space → Nat
  | .hbm => 25
  | .vmem => 10
  | .smem => 0
  | _ => 0

abbrev bufTy : (tb : Table) → Fin (tcTables nBuf tb) → BufTy
  | .hbm, ⟨0, _⟩ => ⟨S600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | _, _ => ⟨S600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg3) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S600000 : Shape := ⟨1, ![600000]⟩
abbrev S100000x128 : Shape := ⟨2, ![100000, 128]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S600000, .i32⟩
  | .hbm, ⟨1, _⟩ => ⟨S600000, .i32⟩
  | .hbm, ⟨2, _⟩ => ⟨S600000, .f32⟩
  | .hbm, ⟨3, _⟩ => ⟨S100000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | _, _ => ⟨S600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.FusedSpec.lean ====
/-
  The function both programs compute, stated once and over no program.

  For a feature matrix f and an aggregated matrix x of the same shape [R, 128], two weight matrices W1, W2 of shape
  [128, 128] and two bias vectors b1, b2 of length 128, the entry at row p and column q is

      ( sum over k of (f(p, k) + x(p, k)) * W1(k, q)  +  b1(q) )  +  ( sum over k of (x(p, k) * f(p, k)) * W2(k, q)  +  b2(q) ),

  that is ((f + x) W1 + b1) + ((x * f) W2 + b2) read at (p, q), on extended reals. Row p of the result depends on row p
  of f and of x only, which is why a tiling of the rows changes nothing: `entry_congr` says that two families of operands
  that agree on the one row and the one column an entry reads give the same entry. No law of extended-real arithmetic is
  used anywhere — the two sides are the same expression —, so nothing here needs the inputs to be finite.
-/
import Idealize.ShloMosaic.PureOps.Ideal
import Idealize.ShloMosaic.Lib.ValueIdx

noncomputable section

namespace Cert.Fused

open Idealize.ShloMosaic Idealize.ShloMosaic.ValueIdx
open scoped BigOperators

/-- The entry at row `p`, column `q` of ((f + x) W1 + b1) + ((x * f) W2 + b2), for matrices of `R` rows. -/
def entry {R : ℕ} (f x : (⟨2, ![R, 128]⟩ : Shape).Idx → EReal)
    (W1 W2 : (⟨2, ![128, 128]⟩ : Shape).Idx → EReal) (b1 b2 : (⟨1, ![128]⟩ : Shape).Idx → EReal)
    (p : Fin R) (q : Fin 128) : EReal :=
  ((∑ k : Fin 128, (f (ix2 p k) + x (ix2 p k)) * W1 (ix2 k q)) + b1 (ix1 q))
    + ((∑ k : Fin 128, (x (ix2 p k) * f (ix2 p k)) * W2 (ix2 k q)) + b2 (ix1 q))

/-- An entry reads row `p` of the two row operands, column `q` of the two weight matrices and position `q` of the two
    biases: operands that agree there give the same entry, whatever their numbers of rows. -/
theorem entry_congr {R R' : ℕ} (f x : (⟨2, ![R, 128]⟩ : Shape).Idx → EReal) (f' x' : (⟨2, ![R', 128]⟩ : Shape).Idx → EReal)
    (W1 W2 W1' W2' : (⟨2, ![128, 128]⟩ : Shape).Idx → EReal) (b1 b2 b1' b2' : (⟨1, ![128]⟩ : Shape).Idx → EReal)
    (p : Fin R) (p' : Fin R') (q : Fin 128)
    (hf : ∀ k : Fin 128, f (ix2 p k) = f' (ix2 p' k)) (hx : ∀ k : Fin 128, x (ix2 p k) = x' (ix2 p' k))
    (hW1 : ∀ k : Fin 128, W1 (ix2 k q) = W1' (ix2 k q)) (hW2 : ∀ k : Fin 128, W2 (ix2 k q) = W2' (ix2 k q))
    (hb1 : b1 (ix1 q) = b1' (ix1 q)) (hb2 : b2 (ix1 q) = b2' (ix1 q)) :
    entry f x W1 W2 b1 b2 p q = entry f' x' W1' W2' b1' b2' p' q := by
  unfold entry
  rw [hb1, hb2]
  refine congrArg₂ (· + ·) (congrArg (· + b1' (ix1 q)) ?_) (congrArg (· + b2' (ix1 q)) ?_)
  · exact Finset.sum_congr rfl fun k _ => by rw [hf k, hx k, hW1 k]
  · exact Finset.sum_congr rfl fun k _ => by rw [hf k, hx k, hW2 k]

/-- The whole result: the [100000, 128] array whose entry at (p, q) is `entry` of the six operands. -/
def fused (f x : (⟨2, ![100000, 128]⟩ : Shape).Idx → EReal)
    (W1 W2 : (⟨2, ![128, 128]⟩ : Shape).Idx → EReal) (b1 b2 : (⟨1, ![128]⟩ : Shape).Idx → EReal) :
    (⟨2, ![100000, 128]⟩ : Shape).Idx → EReal :=
  fun i => entry f x W1 W2 b1 b2 (i 0) (i 1)

/-- `fused` at an index written by its coordinates. -/
theorem fused_ix2 (f x : (⟨2, ![100000, 128]⟩ : Shape).Idx → EReal)
    (W1 W2 : (⟨2, ![128, 128]⟩ : Shape).Idx → EReal) (b1 b2 : (⟨1, ![128]⟩ : Shape).Idx → EReal)
    (p : Fin 100000) (q : Fin 128) : fused f x W1 W2 b1 b2 (ix2 p q) = entry f x W1 W2 b1 b2 p q := rfl

end Cert.Fused

end
-- ==== Proof.BlockValue.lean ====
/-
  What the kernel's body stores, read at an index of the block.

  At a grid point the body holds a block of 10000 rows of the features (f) and of the aggregated matrix (x), the two
  [128, 128] weight matrices and the two biases. It forms f + x and x * f entry by entry, multiplies each on the matrix unit
  into a zero accumulator with its weight matrix, adds the bias — reshaped to one row and broadcast over the 10000 rows —
  and adds the two results. A product into a zero accumulator read at (p, q) is the sum over k of l(p, k) * r(k, q); the
  broadcast bias read at (p, q) is b(q). So the stored value at (p, q) is `entry` of the six loaded blocks.
-/
import proofs.«111040_j17626545783660_2_alg».proof.Proof.Gen.KernelIdeal.Skeleton
import proofs.«111040_j17626545783660_2_alg».proof.Proof.LibMatmulRows
import proofs.«111040_j17626545783660_2_alg».proof.Proof.FusedSpec
import Idealize.ShloMosaic.Lib.ValueLayout
import Idealize.ShloMosaic.Lib.Pipeline.Value

noncomputable section

namespace Cert.Fused.Kernel

open Cert.KernelIdeal Cert.KernelIdeal.Gen
open Idealize.ShloMosaic Idealize.ShloMosaic.ValueIdx
open scoped BigOperators

/-! ## The matrix unit's dimension record: lanes of the left operand against rows of the right -/

theorem dot_rank : dot_S10000x128_S128x128_S10000x128_1_0_0_1_n_n.contr.rank = 1 := rfl

theorem dot_size : dot_S10000x128_S128x128_S10000x128_1_0_0_1_n_n.contr.size ⟨0, by decide⟩ = 128 := rfl

/-- The left operand is read in the result's row. -/
theorem dot_l0 (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- and at the contracted position along its lanes; -/
theorem dot_l1 (i : S10000x128.Idx) (s : dot_S10000x128_S128x128_S10000x128_1_0_0_1_n_n.contr.Idx) :
    (dot_S10000x128_S128x128_S10000x128_1_0_0_1_n_n.lhsIdx i s 1).val = (s ⟨0, by decide⟩).val :=
  dot_S10000x128_S128x128_S10000x128_1_0_0_1_n_n.lhsIdx_val_of_single rfl i s

/-- the right operand at the contracted position along its rows -/
theorem dot_r0 (i : S10000x128.Idx) (s : dot_S10000x128_S128x128_S10000x128_1_0_0_1_n_n.contr.Idx) :
    (dot_S10000x128_S128x128_S10000x128_1_0_0_1_n_n.rhsIdx i s 0).val = (s ⟨0, by decide⟩).val :=
  dot_S10000x128_S128x128_S10000x128_1_0_0_1_n_n.rhsIdx_val_of_single rfl i s

/-- and in the result's column. -/
theorem dot_r1 (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A product of a [10000, 128] block with a [128, 128] matrix into a zero accumulator, at (p, q). -/
theorem product_apply (l : FVec Ideal S10000x128 .f32) (r : FVec Ideal S128x128 .f32) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) :=
  Cert.LibMatmulRows.matmul_rows (R := 10000) (K := 128) (N := 128) dot_S10000x128_S128x128_S10000x128_1_0_0_1_n_n
    dot_rank dot_size dot_l0 dot_l1 dot_r0 dot_r1 l r p q

/-- A bias reshaped to one row and broadcast over the 10000 rows, at (p, q). -/
theorem bias_apply (b : FVec Ideal S128 .f32) (p : Fin 10000) (q : Fin 128) :
    broadcastTo S10000x128 (shapeCast S1x128 b shapeCasts_S128_S1x128) broadcasts_S1x128_S10000x128 (ix2 p q) = b (ix1 q) :=
  (broadcastTo_1b_ab_apply (a := 10000) (b := 128) _ broadcasts_S1x128_S10000x128 p q).trans
    (shapeCast_a_1a_apply (a := 128) b shapeCasts_S128_S1x128 0 q)

/-! ## The stored value -/

/-- The body's one stored value at (p, q) is `entry` of the loaded blocks: features, aggregated matrix, W1, W2, b1, b2. -/
theorem payload_apply (v0 v1 : Vec Ideal S10000x128 .f32) (v3 v4 : Vec Ideal S128x128 .f32) (v5 v6 : Vec Ideal S128 .f32)
    (p : Fin 10000) (q : Fin 128) :
    k0_pay1 (F := Ideal) v0 v1 v3 v4 v5 v6 (ix2 p q) = Cert.Fused.entry v0 v1 v3 v4 v5 v6 p q := by
  unfold k0_pay1 Cert.Fused.entry
  rw [shapeCast_self]
  refine (addf_apply _ _ _).trans (congrArg₂ (· + ·) ?_ ?_)
  · refine (addf_apply _ _ _).trans (congrArg₂ (· + ·) ?_ ?_)
    · exact product_apply (addf v0 v1) v3 p q
    · exact bias_apply v5 p q
  · refine (addf_apply _ _ _).trans (congrArg₂ (· + ·) ?_ ?_)
    · exact product_apply (mulf v1 v0) v4 p q
    · exact bias_apply v6 p q

end Cert.Fused.Kernel

end
-- ==== Proof.KernelArray.lean ====
/-
  From the ten row blocks to the whole result array.

  The grid has ten points. At point t the pipeline stages rows 10000 t … 10000 t + 9999 of the features and of the
  aggregated matrix, the two weight matrices and the two biases whole, and writes the body's stored block back to rows
  10000 t … 10000 t + 9999 of the result. An entry of the result depends on one row of the two row operands only, so the
  block that point t writes back is exactly rows 10000 t … of `fused` of the whole arrays; the ten blocks tile the 100000
  rows (row r lies in the block of point r / 10000), so after the run the result array is `fused` of the arrays the
  region found.
-/
import proofs.«111040_j17626545783660_2_alg».proof.Proof.Gen.KernelIdeal.Value
import proofs.«111040_j17626545783660_2_alg».proof.Proof.BlockValue
import Idealize.ShloMosaic.Lib.Pipeline.Value

noncomputable section

namespace Cert.Fused.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Fused

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-! ## Which block each window holds at a point (decided over the ten points) -/

/-- The features move down one block of rows per point. -/
theorem index_features : ∀ t : Fin cfg0.N, win0_0.index t (0 : Fin 2) = t.val ∧ win0_0.index t (1 : Fin 2) = 0 :=
  (by decide +kernel : ∀ t : Fin grid0.N, _)
/-- So does the aggregated matrix, -/
theorem index_aggregated : ∀ t : Fin cfg0.N, win0_1.index t (0 : Fin 2) = t.val ∧ win0_1.index t (1 : Fin 2) = 0 :=
  (by decide +kernel : ∀ t : Fin grid0.N, _)
/-- and the result. -/
theorem index_result : ∀ t : Fin cfg0.N, win0_6.index t (0 : Fin 2) = t.val ∧ win0_6.index t (1 : Fin 2) = 0 :=
  (by decide +kernel : ∀ t : Fin grid0.N, _)
/-- The weights and biases stay at their one block. -/
theorem index_w1 : ∀ t : Fin cfg0.N, win0_2.index t (0 : Fin 2) = 0 ∧ win0_2.index t (1 : Fin 2) = 0 :=
  (by decide +kernel : ∀ t : Fin grid0.N, _)
theorem index_b1 : ∀ t : Fin cfg0.N, win0_3.index t (0 : Fin 1) = 0 :=
  (by decide +kernel : ∀ t : Fin grid0.N, _)
theorem index_w2 : ∀ t : Fin cfg0.N, win0_4.index t (0 : Fin 2) = 0 ∧ win0_4.index t (1 : Fin 2) = 0 :=
  (by decide +kernel : ∀ t : Fin grid0.N, _)
theorem index_b2 : ∀ t : Fin cfg0.N, win0_5.index t (0 : Fin 1) = 0 :=
  (by decide +kernel : ∀ t : Fin grid0.N, _)

/-! ## Each staged block, read at an index, is its array read at the matching index -/

/-- Row p of the features' block at point t is row 10000 t + p of the features. -/
theorem features_block (c : Dev nD) (t : Fin cfg0.N) (p : Fin 10000) (k : Fin 128) (r : Fin 100000)
    (hr : r.val = t.val * 10000 + p.val) :
    (iblk m c 0 t : Vec Ideal S10000x128 .f32) (ix2 p k) = (V m c main_arg3 : S100000x128.Idx → EReal) (ix2 r k) := by
  obtain ⟨e0, e1⟩ := index_features t
  show V m c main_arg3 (((cfg0.win 0).blk t).view.emb (ix2 p k)) = V m c main_arg3 (ix2 r k)
  refine congrArg (V m c main_arg3) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- Row p of the aggregated matrix's block at point t is row 10000 t + p of the aggregated matrix. -/
theorem aggregated_block (c : Dev nD) (t : Fin cfg0.N) (p : Fin 10000) (k : Fin 128) (r : Fin 100000)
    (hr : r.val = t.val * 10000 + p.val) :
    (iblk m c 1 t : Vec Ideal S10000x128 .f32) (ix2 p k) = (V m c main_v12 : S100000x128.Idx → EReal) (ix2 r k) := by
  obtain ⟨e0, e1⟩ := index_aggregated t
  show V m c main_v12 (((cfg0.win 1).blk t).view.emb (ix2 p k)) = V m c main_v12 (ix2 r k)
  refine congrArg (V m c main_v12) (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- The first weight matrix is staged whole at every point. -/
theorem w1_block (c : Dev nD) (t : Fin cfg0.N) (k q : Fin 128) :
    (iblk m c 2 t : Vec Ideal S128x128 .f32) (ix2 k q) = (V m c main_arg4 : S128x128.Idx → EReal) (ix2 k q) := by
  obtain ⟨e0, e1⟩ := index_w1 t
  show V m c main_arg4 (((cfg0.win 2).blk t).view.emb (ix2 k q)) = V m c main_arg4 (ix2 k q)
  refine congrArg (V m c main_arg4) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second, -/
theorem w2_block (c : Dev nD) (t : Fin cfg0.N) (k q : Fin 128) :
    (iblk m c 4 t : Vec Ideal S128x128 .f32) (ix2 k q) = (V m c main_arg6 : S128x128.Idx → EReal) (ix2 k q) := by
  obtain ⟨e0, e1⟩ := index_w2 t
  show V m c main_arg6 (((cfg0.win 4).blk t).view.emb (ix2 k q)) = V m c main_arg6 (ix2 k q)
  refine congrArg (V m c main_arg6) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- and each bias. -/
theorem b1_block (c : Dev nD) (t : Fin cfg0.N) (q : Fin 128) :
    (iblk m c 3 t : Vec Ideal S128 .f32) (ix1 q) = (V m c main_arg5 : S128.Idx → EReal) (ix1 q) := by
  have e0 := index_b1 t
  show V m c main_arg5 (((cfg0.win 3).blk t).view.emb (ix1 q)) = V m c main_arg5 (ix1 q)
  refine congrArg (V m c main_arg5) (funext fun a => Fin.ext ?_)
  match a with
  | ⟨0, _⟩ => show win0_3.index t (0 : Fin 1) * 128 + 1 * q.val = q.val; omega

theorem b2_block (c : Dev nD) (t : Fin cfg0.N) (q : Fin 128) :
    (iblk m c 5 t : Vec Ideal S128 .f32) (ix1 q) = (V m c main_arg7 : S128.Idx → EReal) (ix1 q) := by
  have e0 := index_b2 t
  show V m c main_arg7 (((cfg0.win 5).blk t).view.emb (ix1 q)) = V m c main_arg7 (ix1 q)
  refine congrArg (V m c main_arg7) (funext fun a => Fin.ext ?_)
  match a with
  | ⟨0, _⟩ => show win0_5.index t (0 : Fin 1) * 128 + 1 * q.val = q.val; omega

/-! ## What a point writes back -/

/-- The result as one function of the arrays the region finds: features, aggregated matrix, W1, W2, b1, b2. -/
abbrev found (c : Dev nD) : S100000x128.Idx → EReal :=
  fused (V m c main_arg3) (V m c main_v12) (V m c main_arg4) (V m c main_arg6) (V m c main_arg5) (V m c main_arg7)

/-- The value stored at point t, at (p, q) of the block, is `fused` of the whole arrays at row 10000 t + p, column q. -/
theorem stored_apply (c : Dev nD) (t : Fin cfg0.N) (p : Fin 10000) (q : Fin 128) (r : Fin 100000)
    (hr : r.val = t.val * 10000 + p.val) :
    k0_pay1 (F := Ideal) (iblk m c 0 t) (iblk m c 1 t) (iblk m c 2 t) (iblk m c 4 t) (iblk m c 3 t) (iblk m c 5 t) (ix2 p q)
      = found m c (ix2 r q) :=
  (payload_apply (iblk m c 0 t) (iblk m c 1 t) (iblk m c 2 t) (iblk m c 4 t) (iblk m c 3 t) (iblk m c 5 t) p q).trans
    (entry_congr (iblk m c 0 t) (iblk m c 1 t) (V m c main_arg3) (V m c main_v12)
      (iblk m c 2 t) (iblk m c 4 t) (V m c main_arg4) (V m c main_arg6)
      (iblk m c 3 t) (iblk m c 5 t) (V m c main_arg5) (V m c main_arg7) p r q
      (fun k => features_block m c t p k r hr) (fun k => aggregated_block m c t p k r hr)
      (fun k => w1_block m c t k q) (fun k => w2_block m c t k q) (b1_block m c t q) (b2_block m c t q))

/-- The same at any index y of the block: the entry of `found` that the result's block at point t puts there. -/
theorem stored_at (c : Dev nD) (t : Fin cfg0.N) (y : S10000x128.Idx) :
    k0_pay1 (F := Ideal) (iblk m c 0 t) (iblk m c 1 t) (iblk m c 2 t) (iblk m c 4 t) (iblk m c 3 t) (iblk m c 5 t) y
      = found m c (((cfg0.win 6).blk t).view.emb y) := by
  obtain ⟨p, q, rfl⟩ : ∃ (p : Fin 10000) (q : Fin 128), y = ix2 p q := ⟨y 0, y 1, eq_ix2 y⟩
  obtain ⟨e0, e1⟩ := index_result t
  have ht : t.val < 10 := lt_of_lt_of_eq t.isLt (N_0 : cfg0.N = 10)
  have hp : p.val < 10000 := p.isLt
  have hemb : ((cfg0.win 6).blk t).view.emb (ix2 p q) = ix2 (⟨t.val * 10000 + p.val, by omega⟩ : Fin 100000) q :=
    funext fun a => Fin.ext (by
      match a with
      | ⟨0, _⟩ => show win0_6.index t (0 : Fin 2) * 10000 + 1 * p.val = t.val * 10000 + p.val; omega
      | ⟨1, _⟩ => show win0_6.index t (1 : Fin 2) * 128 + 1 * q.val = q.val; omega)
  rw [hemb]
  exact stored_apply m c t p q ⟨t.val * 10000 + p.val, by omega⟩ rfl

/-- WHAT POINT t WRITES BACK is block t of `found`. -/
theorem flushed_eq (c : Dev nD) (t : Fin cfg0.N) :
    (dats m 0 c).flushed 6 t = ((cfg0.win 6).blk t).view.read (Elt Ideal) (found m c) := by
  rw [flushed6]
  unfold out0_6
  rw [View.canon_unit_zero origin2]
  simp only [View.ld_unit_zero (S := S10000x128) origin2, View.ld_unit_zero (S := S128x128) origin2,
    View.ld_unit_zero (S := S128) origin1]
  funext j
  show k0_pay1 (F := Ideal) (iblk m c 0 t) (iblk m c 1 t) (iblk m c 2 t) (iblk m c 4 t) (iblk m c 3 t) (iblk m c 5 t) j
      = found m c (((cfg0.win 6).blk t).view.emb j)
  exact stored_at m c t j

/-! ## The ten blocks tile the rows -/

/-- An index of the result is in point t's block iff each coordinate is in the block's range on its axis. -/
theorem mem_block (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v13).slice (win0_6.rect t)).set ↔ _
  rw [View.set_slice_whole, Rect.mem_set_unit]
  exact Iff.rfl

/-- Row r of the result lies in the block of point r / 10000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1⟩ := index_result t
  refine ⟨t, flush0_6 t, ?_⟩
  rw [mem_block]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 128 ≤ (i 1).val ∧ (i 1).val < win0_6.index t (1 : Fin 2) * 128 + 128
    omega

/-- THE RESULT ARRAY after the run is `found`. -/
theorem final (c : Dev nD) : (dats m 0 c).arrAt 6 cfg0.N = found m c :=
  (dats m 0 c).arrAt_eq_of_cover 6 (found m c) (fun t _ => flushed_eq m c t) covered

/-! ## The run -/

/-- Every weakly fair execution of the kernel's program terminates with the result array at `fused` of the launch
    contents of the features, the weights and the biases and of the aggregated matrix the host operations left, and
    with the arguments unchanged. -/
theorem run : θ_run defs (onTc (τ := τ) (main (F := Ideal))) ⟨m, fun _ => 0, ρ⟩ fun r => ∀ c : Dev nD,
      r.2.mem ((c : Thread nD τ).loc main_v13)
        = fused (m ((c : Thread nD τ).loc main_arg3)) (V m c main_v12) (m ((c : Thread nD τ).loc main_arg4))
            (m ((c : Thread nD τ).loc main_arg6)) (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (by
      have h3 := V_main_arg3 m c
      have h4 := V_main_arg4 m c
      have h5 := V_main_arg5 m c
      have h6 := V_main_arg6 m c
      have h7 := V_main_arg7 m c
      unfold found
      rw [h3, h4, h5, h6, h7])), (h c).2⟩)
    (run_blocks m ρ)

end Cert.Fused.Kernel

end
-- ==== Proof.HostPrefix.lean ====
/-
  The aggregated matrix as the kernel's region finds it.

  Before the pallas_call the kernel's program runs the same sixteen host operations as the reference: the column indices
  wrapped into range, the gather of the features' rows, the scaling by the edge values, and the scatter-add into a zero
  matrix. The buffer the scatter-add writes is therefore, when the region is entered, the same function of the four
  arguments (rows, cols, vals, features) as the reference's scatter-add stage. It is never opened: both programs use it as
  the one operand x.
-/
import proofs.«111040_j17626545783660_2_alg».proof.Proof.Gen.KernelIdeal.Frame
import proofs.«111040_j17626545783660_2_alg».proof.Proof.Gen.ReferenceIdeal.Read
import Idealize.ShloMosaic.Lib.StableHlo.Run

noncomputable section

namespace Cert.Fused.Kernel

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregated matrix of the launch contents of rows, cols, vals and features: the reference's scatter-add stage. -/
abbrev aggregated (c : Dev nD) : S100000x128.Idx → EReal :=
  Cert.ReferenceIdeal.Read.val_main_v12 (F := Ideal) (m ((c : Thread nD τ).loc main_arg0)) (m ((c : Thread nD τ).loc main_arg1))
    (m ((c : Thread nD τ).loc main_arg2)) (m ((c : Thread nD τ).loc main_arg3))

/-- When the region is entered, the scatter-add's buffer holds the aggregated matrix. -/
theorem scattered_eq (c : Dev nD) : (V m c main_v12 : S100000x128.Idx → EReal) = aggregated m c := by
  dsimp only [Gen.V, Gen.hostOps0]
  after_results
  rfl

end Cert.Fused.Kernel

end
-- ==== Proof.RefFused.lean ====
/-
  The reference's result is `fused`.

  After the scatter-add has produced the aggregated matrix x, the reference computes (f + x) W1 + b1 and (x * f) W2 + b2
  with two host matrix products and adds them. On extended reals a host matrix product read at (p, q) is the sum over k
  of l(p, k) * r(k, q), a bias broadcast over the rows reads b(q) at (p, q), and the additions and the product are
  entry by entry: so the result at (p, q) is `entry` of the features, of x, and of the weights and biases. The
  aggregated matrix x is carried as the scatter-add's stage, unopened: it is the same stage in the kernel's program.
-/
import proofs.«111040_j17626545783660_2_alg».proof.Proof.Gen.ReferenceIdeal.Read
import proofs.«111040_j17626545783660_2_alg».proof.Proof.FusedSpec

noncomputable section

namespace Cert.Fused.Ref

open Cert.ReferenceIdeal Cert.ReferenceIdeal.Gen Cert.ReferenceIdeal.Read
open Idealize.ShloMosaic Idealize.ShloMosaic.ValueIdx
open scoped BigOperators

/-- The left operand of either matrix product is read at (row of the result, k). -/
theorem lidx14_eq (i : S100000x128.Idx) (k : Fin 128) : lidx_main_v14 i k = ix2 (i 0) k :=
  funext fun a => Fin.ext (by match a with | ⟨0, _⟩ => rfl | ⟨1, _⟩ => rfl)
/-- The right operand of either matrix product is read at (k, column of the result). -/
theorem ridx14_eq (i : S100000x128.Idx) (k : Fin 128) : ridx_main_v14 i k = ix2 k (i 1) :=
  funext fun a => Fin.ext (by match a with | ⟨0, _⟩ => rfl | ⟨1, _⟩ => rfl)
theorem lidx19_eq (i : S100000x128.Idx) (k : Fin 128) : lidx_main_v19 i k = ix2 (i 0) k :=
  funext fun a => Fin.ext (by match a with | ⟨0, _⟩ => rfl | ⟨1, _⟩ => rfl)
theorem ridx19_eq (i : S100000x128.Idx) (k : Fin 128) : ridx_main_v19 i k = ix2 k (i 1) :=
  funext fun a => Fin.ext (by match a with | ⟨0, _⟩ => rfl | ⟨1, _⟩ => rfl)
/-- A bias broadcast first to one row and then over all rows is read at the result's column. -/
theorem bias15_eq (i : S100000x128.Idx) : idx_main_v15 (idx_main_v16 i) = ix1 (i 1) :=
  funext fun a => Fin.ext (by match a with | ⟨0, _⟩ => rfl)
theorem bias20_eq (i : S100000x128.Idx) : idx_main_v20 (idx_main_v21 i) = ix1 (i 1) :=
  funext fun a => Fin.ext (by match a with | ⟨0, _⟩ => rfl)

/-- The reference's last stage is `fused` of the features, the scatter-add's stage, the weights and the biases. -/
theorem result_eq (x0 x1 : (⟨S600000, .i32⟩ : BufTy).Contents (Elt Ideal)) (x2 : (⟨S600000, .f32⟩ : BufTy).Contents (Elt Ideal))
    (x3 : (⟨S100000x128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v23 (F := Ideal) x0 x1 x2 x3 x4 x5 x6 x7
      = Cert.Fused.fused x3 (val_main_v12 (F := Ideal) x0 x1 x2 x3) x4 x6 x5 x7 := by
  funext i
  rw [val_main_v23_apply, val_main_v17_apply, val_main_v22_apply, val_main_v14_apply, val_main_v19_apply,
    val_main_v16_apply, val_main_v15_apply, val_main_v21_apply, val_main_v20_apply]
  simp only [val_main_v13_apply, val_main_v18_apply, lidx14_eq, ridx14_eq, lidx19_eq, ridx19_eq, bias15_eq, bias20_eq]
  rfl

end Cert.Fused.Ref

end
-- ==== Proof.lean ====
/-
  The proof of `Cert.Claim`: the kernel's program and its reference compute the same [100000, 128] array on extended reals.

  Both programs first build the aggregated matrix x from rows, cols, vals and the features f by the same host operations
  (gather the features' rows named by cols, scale by vals, scatter-add into the rows named by rows). The reference then
  computes ((f + x) W1 + b1) + ((x * f) W2 + b2) with two host matrix products; the kernel computes the same expression in
  ten blocks of 10000 rows, each product on the matrix unit into a zero accumulator. Read at (p, q), either product is the
  sum over k of l(p, k) * r(k, q), and an entry of the result depends on row p of f and x only, so the tiling changes
  nothing: both results are `Cert.Fused.fused` of f, x, W1, W2, b1, b2 (Proof/FusedSpec.lean). The two sides are the same
  expression term by term — no rearrangement of sums, no distributivity —, so the precondition (finite inputs) is not used.

  Modules: Proof/FusedSpec.lean (the function), Proof/LibMatmulRows.lean (a matrix product at an index, both spellings),
  Proof/BlockValue.lean (what the kernel's body stores, at an index), Proof/KernelArray.lean (the ten blocks tile the
  result; the kernel's run), Proof/HostPrefix.lean (the aggregated matrix the kernel's region finds is the reference's
  scatter-add stage), Proof/RefFused.lean (the reference's last stage is `fused`). The frames are the generated ones;
  the kernel's idealization rewrote nothing, so `preserves` asks nothing.
-/
import proofs.«111040_j17626545783660_2_alg».proof.Defs
import proofs.«111040_j17626545783660_2_alg».proof.Proof.Gen.Kernel
import proofs.«111040_j17626545783660_2_alg».proof.Proof.Gen.Kernel.Skeleton
import proofs.«111040_j17626545783660_2_alg».proof.Proof.Gen.Kernel.Launch
import proofs.«111040_j17626545783660_2_alg».proof.Proof.Gen.Kernel.Points
import proofs.«111040_j17626545783660_2_alg».proof.Proof.Gen.Kernel.Frame
import proofs.«111040_j17626545783660_2_alg».proof.Proof.Gen.KernelIdeal
import proofs.«111040_j17626545783660_2_alg».proof.Proof.Gen.KernelIdeal.Skeleton
import proofs.«111040_j17626545783660_2_alg».proof.Proof.Gen.KernelIdeal.Launch
import proofs.«111040_j17626545783660_2_alg».proof.Proof.Gen.KernelIdeal.Points
import proofs.«111040_j17626545783660_2_alg».proof.Proof.Gen.KernelIdeal.Frame
import proofs.«111040_j17626545783660_2_alg».proof.Proof.Gen.ReferenceIdeal
import proofs.«111040_j17626545783660_2_alg».proof.Proof.Gen.KernelIdeal.Value
import proofs.«111040_j17626545783660_2_alg».proof.Proof.Gen.ReferenceIdeal.Run
import proofs.«111040_j17626545783660_2_alg».proof.Proof.Gen.ReferenceIdeal.Read
import proofs.«111040_j17626545783660_2_alg».proof.Proof.Gen.Pre_finite_inputs
import proofs.«111040_j17626545783660_2_alg».proof.Proof.KernelArray
import proofs.«111040_j17626545783660_2_alg».proof.Proof.HostPrefix
import proofs.«111040_j17626545783660_2_alg».proof.Proof.RefFused
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its idealization, -/
theorem frame_ideal : Cert.frame_KernelIdeal := fun m ρ _ => Cert.KernelIdeal.Gen.frame m ρ

/-- and the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the result array at `fused` of the features, the
    aggregated matrix, the weights and the biases: the kernel's by its ten blocks (Proof/KernelArray.lean) over the
    aggregated matrix its host operations left (Proof/HostPrefix.lean), the reference's by reading its last stage
    (Proof/RefFused.lean). -/
theorem algebraic : Cert.algebraic_KernelIdeal_ReferenceIdeal := by
  intro m ρ m' ρ' _ hagree
  refine ⟨fun c => Cert.Fused.fused (m ((c : Thread Cert.KernelIdeal.nD Cert.KernelIdeal.τ).loc Cert.KernelIdeal.main_arg3))
      (Cert.Fused.Kernel.aggregated m c)
      (m ((c : Thread Cert.KernelIdeal.nD Cert.KernelIdeal.τ).loc Cert.KernelIdeal.main_arg4))
      (m ((c : Thread Cert.KernelIdeal.nD Cert.KernelIdeal.τ).loc Cert.KernelIdeal.main_arg6))
      (m ((c : Thread Cert.KernelIdeal.nD Cert.KernelIdeal.τ).loc Cert.KernelIdeal.main_arg5))
      (m ((c : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.Fused.Kernel.run m ρ)
    beta_reduce
    rw [Cert.Fused.Kernel.scattered_eq m c]
  · refine (θ_run Cert.ReferenceIdeal.defs _ _).mono (fun _ h c => ⟨(h c).1.trans ?_, (h c).2⟩)
      (Cert.ReferenceIdeal.Value.run (F := Ideal) m' ρ')
    beta_reduce
    obtain ⟨a0, a1, a2, a3, a4, a5, a6, a7⟩ := hagree c
    rw [Cert.ReferenceIdeal.Read.val_main_v23_eq, Cert.Fused.Ref.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
